-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x20 : Shape := ⟨2, ![2000000, 20]⟩
abbrev S_ : Shape := ⟨0, ![]⟩

class Facts : Prop where
  bcast_S_S2000000x20 : S_.BroadcastsInDim S2000000x20 (![] : Fin 0 → Fin S2000000x20.rank)
  reducesTo_S2000000x20_S_d0_1 : S2000000x20.ReducesTo [0, 1] S_
  h_S_ : 0 < S_.numel

variable [Facts]

def fn {F : FTy → Type} [FloatOps F] (main_arg0 : FVec F S2000000x20 .f32) : IVec S_ 1 :=
  let main_v0 : FVec F S2000000x20 .f32 := Host.absf main_arg0
  let main_cst : FVec F S_ .f32 := constant S_ .f32 0x7F800000#32
  let main_v1 : FVec F S2000000x20 .f32 := broadcastInDim S2000000x20 ![] bcast_S_S2000000x20 main_cst
  let main_v2 : IVec S2000000x20 1 := cmpf .olt main_v0 main_v1
  let main_c : IVec S_ 1 := constantI S_ 1 1#1
  let main_v3 : IVec S_ 1 := (fun x v => Host.reduce IntOp.andi x v reducesTo_S2000000x20_S_d0_1 h_S_) main_v2 main_c
  main_v3
-- ==== Kernel.lean ====
abbrev S2000000x20 : Shape := ⟨2, ![2000000, 20]⟩
abbrev S10000x20 : Shape := ⟨2, ![10000, 20]⟩
abbrev S10000x10 : Shape := ⟨2, ![10000, 10]⟩
abbrev S10000 : Shape := ⟨1, ![10000]⟩
abbrev S10000x1 : Shape := ⟨2, ![10000, 1]⟩
abbrev S2000000x2x10 : Shape := ⟨3, ![2000000, 2, 10]⟩

abbrev nBuf : Space → Nat
  | .hbm => 3
  | .vmem => 4
  | .smem => 0
  | _ => 0

abbrev bufTy : (tb : Table) → Fin (tcTables nBuf tb) → BufTy
  | .hbm, ⟨0, _⟩ => ⟨S2000000x20, .f32⟩
  | .hbm, ⟨1, _⟩ => ⟨S2000000x20, .f32⟩
  | .hbm, ⟨2, _⟩ => ⟨S2000000x2x10, .f32⟩
  | .local _ .vmem, ⟨0, _⟩ => ⟨S10000x20, .f32⟩
  | .local _ .vmem, ⟨1, _⟩ => ⟨S10000x20, .f32⟩
  | .local _ .vmem, ⟨2, _⟩ => ⟨S10000x20, .f32⟩
  | .local _ .vmem, ⟨3, _⟩ => ⟨S10000x20, .f32⟩
  | _, _ => ⟨S2000000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S10000x20_S10000x20_0_0 : ∀ a, (![0, 0] : Fin 2 → Nat) a + S10000x20.size a ≤ S10000x20.size a
  h_S10000x20 : 0 < S10000x20.numel
  slices_S10000x20_o0_0_S10000x10 : S10000x20.Slices ![0, 0] S10000x10
  slices_S10000x20_o0_10_S10000x10 : S10000x20.Slices ![0, 10] S10000x10
  reduces_S10000x10_S10000 : S10000x10.Reduces [1] S10000
  shapeCasts_S10000_S10000x1 : S10000.ShapeCasts S10000x1
  broadcasts_S10000x1_S10000x10 : S10000x1.Broadcasts S10000x10
  inb_S10000x20_S10000x10_0_0 : ∀ a, (![0, 0] : Fin 2 → Nat) a + S10000x10.size a ≤ S10000x20.size a
  h_S10000x10 : 0 < S10000x10.numel
  inb_S10000x20_S10000x10_0_10 : ∀ a, (![0, 10] : Fin 2 → Nat) a + S10000x10.size a ≤ S10000x20.size a
  shapeCasts_S2000000x20_S2000000x2x10 : S2000000x20.ShapeCasts S2000000x2x10
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x20.size a ≤ S2000000x20.size a
  hwx0_0 : ∀ i : grid0.Coords, EltTy.bits .f32 = 32 ∨ (Rect.block (s := S2000000x20) S10000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x20.size a ≤ S2000000x20.size a
  hwx0_1 : ∀ i : grid0.Coords, EltTy.bits .f32 = 32 ∨ (Rect.block (s := S2000000x20) S10000x20.size (cc0_transform_1 i) (hinb0_1 i)).WholeWords (EltTy.packing .f32)

variable [Facts₀]

abbrev win0_0 : Pipeline.Window sig grid0 :=
  Pipeline.Window.ofSpec (Memref.whole main_arg0) S10000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x20.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x20 : Shape := ⟨2, ![2000000, 20]⟩
abbrev S2000000x2x10 : Shape := ⟨3, ![2000000, 2, 10]⟩
abbrev S_ : Shape := ⟨0, ![]⟩
abbrev S2000000x2 : Shape := ⟨2, ![2000000, 2]⟩
abbrev S2000000x2x1 : Shape := ⟨3, ![2000000, 2, 1]⟩

abbrev nBuf : Space → Nat
  | .hbm => 25
  | .vmem => 0
  | .smem => 0
  | _ => 0

abbrev bufTy : (tb : Table) → Fin (tcTables nBuf tb) → BufTy
  | .hbm, ⟨0, _⟩ => ⟨S2000000x20, .f32⟩
  | .hbm, ⟨1, _⟩ => ⟨S2000000x2x10, .f32⟩
  | .hbm, ⟨2, _⟩ => ⟨S_, .f32⟩
  | .hbm, ⟨3, _⟩ => ⟨S2000000x2, .f32⟩
  | .hbm, ⟨4, _⟩ => ⟨S2000000x2x1, .f32⟩
  | .hbm, ⟨5, _⟩ => ⟨S_, .f32⟩
  | .hbm, ⟨6, _⟩ => ⟨S2000000x2x1, .f32⟩
  | .hbm, ⟨7, _⟩ => ⟨S2000000x2x1, .f32⟩
  | .hbm, ⟨8, _⟩ => ⟨S2000000x2x10, .f32⟩
  | .hbm, ⟨9, _⟩ => ⟨S2000000x2x10, .f32⟩
  | .hbm, ⟨10, _⟩ => ⟨S2000000x2x10, .f32⟩
  | .hbm, ⟨11, _⟩ => ⟨S_, .f32⟩
  | .hbm, ⟨12, _⟩ => ⟨S2000000x2, .f32⟩
  | .hbm, ⟨13, _⟩ => ⟨S2000000x2x1, .f32⟩
  | .hbm, ⟨14, _⟩ => ⟨S_, .f32⟩
  | .hbm, ⟨15, _⟩ => ⟨S2000000x2x1, .f32⟩
  | .hbm, ⟨16, _⟩ => ⟨S2000000x2x1, .f32⟩
  | .hbm, ⟨17, _⟩ => ⟨S2000000x2x1, .f32⟩
  | .hbm, ⟨18, _⟩ => ⟨S2000000x2x10, .f32⟩
  | .hbm, ⟨19, _⟩ => ⟨S2000000x2x10, .f32⟩
  | .hbm, ⟨20, _⟩ => ⟨S_, .f32⟩
  | .hbm, ⟨21, _⟩ => ⟨S2000000x2x1, .f32⟩
  | .hbm, ⟨22, _⟩ => ⟨S2000000x2x1, .f32⟩
  | .hbm, ⟨23, _⟩ => ⟨S2000000x2x10, .f32⟩
  | .hbm, ⟨24, _⟩ => ⟨S2000000x2x10, .f32⟩
  | _, _ => ⟨S2000000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  shapeCasts_S2000000x20_S2000000x2x10 : S2000000x20.ShapeCasts S2000000x2x10
  reducesTo_S2000000x2x10_S2000000x2_d2 : S2000000x2x10.ReducesTo [2] S2000000x2
  h_S_ : 0 < S_.numel
  bcast_S2000000x2_S2000000x2x1_0_1 : S2000000x2.BroadcastsInDim S2000000x2x1 (![0, 1] : Fin 2 → Fin S2000000x2x1.rank)
  bcast_S_S2000000x2x1 : S_.BroadcastsInDim S2000000x2x1 (![] : Fin 0 → Fin S2000000x2x1.rank)
  bcast_S2000000x2x1_S2000000x2x10_0_1_2 : S2000000x2x1.BroadcastsInDim S2000000x2x10 (![0, 1, 2] : Fin 3 → Fin S2000000x2x10.rank)

variable [Facts₀]

class Facts : Prop extends Facts₀ where

variable [Facts]
-- ==== Proof.SegmentNorm.lean ====
/-
  The mathematics both programs compute, stated once and over no program.

  A row of the argument has twenty entries, read as two segments of ten. A segment `s` is standardised entry by
  entry: with `μ = (Σⱼ sⱼ) / 10` its mean and `σ² = (Σⱼ (sⱼ - μ)²) / 10` its population variance, entry `k` becomes
  `(sₖ - μ) / (√σ² + ε)`, every operation the exact one on the extended reals. The divisor `10` and the offset `ε`
  are kept as the binary words the two programs share; their values are never needed.

  The result array [2000000, 2, 10] holds at (n, s, k) the standardised entry `k` of segment `s` of row `n`, and
  that segment is columns `10·s … 10·s + 9` of the row.
-/
import Idealize.ShloMosaic.PureOps.Ideal
import Idealize.ShloMosaic.Lib.ValueIdx

noncomputable section

namespace Cert.Standardize

open Idealize.ShloMosaic Idealize.ShloMosaic.ValueIdx

/-- The divisor of both means: the word of `10.0`. -/
abbrev ten : EReal := Ideal.ofBits .f32 0x41200000#32
/-- The offset added to the standard deviation: the word both programs print for `1e-7`. -/
abbrev eps : EReal := Ideal.ofBits .f32 0x33D6BF95#32

/-- The mean of a segment of ten. -/
def mean10 (s : Fin 10 → EReal) : EReal := Ideal.div (∑ j : Fin 10, s j) ten

/-- Its population variance: the mean of the squared deviations from the mean. -/
def var10 (s : Fin 10 → EReal) : EReal := Ideal.div (∑ j : Fin 10, (s j - mean10 s) * (s j - mean10 s)) ten

/-- Entry `k` of the standardised segment: its deviation from the mean over the standard deviation plus `ε`. -/
def norm10 (s : Fin 10 → EReal) (k : Fin 10) : EReal := Ideal.div (s k - mean10 s) (Ideal.sqrt (var10 s) + eps)

/-- Column `10·s + j` of a row of twenty: entry `j` of segment `s`. -/
def segCol (s : Fin 2) (j : Fin 10) : Fin 20 := ⟨10 * s.val + j.val, by have := s.isLt; have := j.isLt; omega⟩

theorem segCol_val (s : Fin 2) (j : Fin 10) : (segCol s j).val = 10 * s.val + j.val := rfl

/-- Segment `s` of row `n` of the argument. -/
def rowSegment (x : (⟨2, ![2000000, 20]⟩ : Shape).Idx → EReal) (n : Fin 2000000) (s : Fin 2) : Fin 10 → EReal :=
  fun j => x (ix2 n (segCol s j))

/-- The result at (n, s, k). -/
def stdEntry (x : (⟨2, ![2000000, 20]⟩ : Shape).Idx → EReal) (n : Fin 2000000) (s : Fin 2) (k : Fin 10) : EReal :=
  norm10 (rowSegment x n s) k

/-- The whole result array as one function of the argument array. -/
def standardized (x : (⟨2, ![2000000, 20]⟩ : Shape).Idx → EReal) : (⟨3, ![2000000, 2, 10]⟩ : Shape).Idx → EReal :=
  fun i => stdEntry x (i 0) (i 1) (i 2)

theorem standardized_apply (x : (⟨2, ![2000000, 20]⟩ : Shape).Idx → EReal) (n : Fin 2000000) (s : Fin 2) (k : Fin 10) :
    standardized x (ix3 n s k) = stdEntry x n s k := rfl

end Cert.Standardize

end
-- ==== Proof.ReferenceValue.lean ====
/-
  The reference computes the standardised array.

  The reference first views the [2000000, 20] argument as [2000000, 2, 10]: entry (n, s, j) of the view is column
  `10·s + j` of row `n`, because its row-major position `(2n + s)·10 + j` is `20·n + (10·s + j)`. Everything after
  that acts on the last axis of the view: a sum over the ten entries of a segment (from the zero word, which adds
  nothing), a division by ten, a difference, a square, the same sum and division again, a square root, the offset
  added, and the final quotient. Read at an index, stage by stage, that is the segment's standardised entry.
-/
import proofs.«140830_j57956288692228_1_alg».proof.Proof.Gen.ReferenceIdeal.Read
import proofs.«140830_j57956288692228_1_alg».proof.Proof.SegmentNorm
import Idealize.ShloMosaic.Lib.ValueIdx

noncomputable section

namespace Cert.ReferenceIdeal.RefValue

open Cert.ReferenceIdeal Cert.ReferenceIdeal.Read Idealize.ShloMosaic Idealize.ShloMosaic.ValueIdx Cert.Standardize

variable (x : (⟨S2000000x20, .f32⟩ : BufTy).Contents (Elt Ideal))

/-- The view's entry (n, s, j) is column `10·s + j` of row `n`. -/
theorem view_at (n : Fin 2000000) (s : Fin 2) (j : Fin 10) :
    val_main_v0 (F := Ideal) x (ix3 n s j) = x (ix2 n (segCol s j)) := by
  rw [val_main_v0_apply]
  refine congrArg x (funext fun a => Fin.ext ?_)
  have hs := s.isLt
  have hj := j.isLt
  match a with
  | ⟨0, _⟩ => show ((n.val * 2 + s.val) * 10 + j.val) / 20 = n.val; omega
  | ⟨1, _⟩ => show ((n.val * 2 + s.val) * 10 + j.val) % 20 = 10 * s.val + j.val; omega

/-- The first sum, divided by ten, is the segment's mean — wherever on the unit axis it is read. -/
theorem mean_at (n : Fin 2000000) (s : Fin 2) (z : Fin 1) :
    val_main_v4 (F := Ideal) x (ix3 n s z) = mean10 (rowSegment x n s) := by
  rw [val_main_v4_apply, val_main_v2_apply, val_main_v3_apply, val_main_cst_0_apply, val_main_v1_apply, val_main_cst_apply]
  show Ideal.div (Ideal.ofBits .f32 0x00000000#32 + ∑ k : Fin 10, val_main_v0 (F := Ideal) x (idx_main_v1 (idx_main_v2 (ix3 n s z)) k)) ten = _
  rw [Ideal.ofBits_zero_f32, zero_add]
  unfold mean10 rowSegment
  refine congrArg (Ideal.div · ten) (Finset.sum_congr rfl fun k _ => ?_)
  have e : idx_main_v1 (idx_main_v2 (ix3 n s z)) k = ix3 n s k :=
    funext fun a => Fin.ext (by match a with | ⟨0, _⟩ => rfl | ⟨1, _⟩ => rfl | ⟨2, _⟩ => rfl)
  rw [e]
  exact view_at x n s k

/-- The difference: an entry of the view less its segment's mean. -/
theorem dev_at (n : Fin 2000000) (s : Fin 2) (j : Fin 10) :
    val_main_v6 (F := Ideal) x (ix3 n s j) = rowSegment x n s j - mean10 (rowSegment x n s) := by
  rw [val_main_v6_apply, val_main_v5_apply, view_at]
  have e : idx_main_v5 (ix3 n s j) = ix3 n s (0 : Fin 1) :=
    funext fun a => Fin.ext (by match a with | ⟨0, _⟩ => rfl | ⟨1, _⟩ => rfl | ⟨2, _⟩ => rfl)
  rw [e, mean_at]
  rfl

/-- The second sum, of the squared differences, divided by ten, is the segment's variance. -/
theorem var_at (n : Fin 2000000) (s : Fin 2) (z : Fin 1) :
    val_main_v11 (F := Ideal) x (ix3 n s z) = var10 (rowSegment x n s) := by
  rw [val_main_v11_apply, val_main_v9_apply, val_main_v10_apply, val_main_cst_2_apply, val_main_v8_apply, val_main_cst_1_apply]
  show Ideal.div (Ideal.ofBits .f32 0x00000000#32 + ∑ k : Fin 10, val_main_v7 (F := Ideal) x (idx_main_v8 (idx_main_v9 (ix3 n s z)) k)) ten = _
  rw [Ideal.ofBits_zero_f32, zero_add]
  unfold var10
  refine congrArg (Ideal.div · ten) (Finset.sum_congr rfl fun k _ => ?_)
  have e : idx_main_v8 (idx_main_v9 (ix3 n s z)) k = ix3 n s k :=
    funext fun a => Fin.ext (by match a with | ⟨0, _⟩ => rfl | ⟨1, _⟩ => rfl | ⟨2, _⟩ => rfl)
  rw [e, val_main_v7_apply, dev_at]
  rfl

/-- The final quotient at (n, s, k): the difference over the square root of the variance plus the offset. -/
theorem result_at (n : Fin 2000000) (s : Fin 2) (k : Fin 10) :
    val_main_v18 (F := Ideal) x (ix3 n s k) = stdEntry x n s k := by
  rw [val_main_v18_apply, val_main_v14_apply, val_main_v13_apply, val_main_v17_apply, val_main_v16_apply, val_main_v12_apply,
    val_main_v15_apply, val_main_cst_3_apply, view_at]
  have e13 : idx_main_v13 (ix3 n s k) = ix3 n s (0 : Fin 1) :=
    funext fun a => Fin.ext (by match a with | ⟨0, _⟩ => rfl | ⟨1, _⟩ => rfl | ⟨2, _⟩ => rfl)
  have e17 : idx_main_v17 (ix3 n s k) = ix3 n s (0 : Fin 1) :=
    funext fun a => Fin.ext (by match a with | ⟨0, _⟩ => rfl | ⟨1, _⟩ => rfl | ⟨2, _⟩ => rfl)
  rw [e13, e17, mean_at, var_at]
  rfl

/-- The reference's result array is the standardised array of its argument. -/
theorem reference_eq : val_main_v18 (F := Ideal) x = standardized x := funext fun i => by
  obtain ⟨n, s, k, rfl⟩ : ∃ (n : Fin 2000000) (s : Fin 2) (k : Fin 10), i = ix3 n s k := ⟨i 0, i 1, i 2, eq_ix3 i⟩
  exact result_at x n s k

end Cert.ReferenceIdeal.RefValue

end
-- ==== Proof.KernelSegment.lean ====
/-
  What the kernel body stores, read at an index.

  The body loads its [10000, 20] block, cuts it into the two [10000, 10] column slices (columns 0–9 and 10–19) and
  treats both alike: the lane sum of each row, kept as a column [10000, 1], divided by ten, is the row's mean;
  repeated along the lanes and subtracted it gives the deviations; their squares go through the same sum and
  division to the variance; the square root of that, the offset added, repeated along the lanes, divides the
  deviations. So the value stored for a slice, at row `p` and lane `q`, is the standardised entry `q` of row `p` of
  that slice — and a row of a slice is ten consecutive columns of the block's row.
-/
import proofs.«140830_j57956288692228_1_alg».proof.Proof.Gen.KernelIdeal.Skeleton
import proofs.«140830_j57956288692228_1_alg».proof.Proof.SegmentNorm
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Cert.Standardize

/-! ## The layout operations of the body, read at an index -/

/-- The lane sum of row `p` of a [10000, 10] vector is the sum of its ten entries. -/
theorem laneSum_at (w : FVec Ideal S10000x10 .f32) (p : Fin 10000) :
    multiReduction .add [1] S10000 w 0x00000000#32 reduces_S10000x10_S10000 (.inl rfl) rfl (ix1 p) = ∑ j : Fin 10, w (ix2 p j) := by
  refine (Ideal.multiReduction_add_single w 0x00000000#32 reduces_S10000x10_S10000 (.inl rfl) rfl (ix1 p)).trans ?_
  refine Finset.sum_congr rfl fun k _ => congrArg w (funext fun a => Fin.ext ?_)
  match a with
  | ⟨0, _⟩ => rfl
  | ⟨1, _⟩ => rfl

/-- A [10000] vector viewed as a column [10000, 1]: row `p` holds entry `p`. -/
theorem column_at (u : FVec Ideal S10000 .f32) (p : Fin 10000) (z : Fin 1) :
    shapeCast S10000x1 u shapeCasts_S10000_S10000x1 (ix2 p z) = u (ix1 p) := by
  refine shapeCast_apply u shapeCasts_S10000_S10000x1 (ix2 p z) (ix1 p) ?_
  rw [Shape.rowMajor_val_one, Shape.rowMajor_val_two]
  show p.val = p.val * 1 + z.val
  have := z.isLt
  omega

/-- A column [10000, 1] repeated along ten lanes: every lane of row `p` holds the column's row `p`. -/
theorem lanes_at (u : FVec Ideal S10000x1 .f32) (p : Fin 10000) (q : Fin 10) :
    broadcastTo S10000x10 u broadcasts_S10000x1_S10000x10 (ix2 p q) = u (ix2 p (0 : Fin 1)) := by
  refine broadcastTo_apply u broadcasts_S10000x1_S10000x10 (ix2 p q) (ix2 p (0 : Fin 1)) fun a => ?_
  match a with
  | ⟨0, _⟩ => show p.val = if (10000 : Nat) = 1 then 0 else p.val; rw [if_neg (by decide)]
  | ⟨1, _⟩ => show 0 = if (1 : Nat) = 1 then 0 else q.val; rw [if_pos rfl]

/-! ## One slice -/

/-- The mean of each row of a slice, as a column. -/
def rowMean (v : FVec Ideal S10000x10 .f32) : FVec Ideal S10000x1 .f32 :=
  divf (shapeCast S10000x1 (multiReduction .add [1] S10000 v 0x00000000#32 reduces_S10000x10_S10000 (.inl rfl) rfl) shapeCasts_S10000_S10000x1)
    (broadcast S10000x1 (Scalar.ofBits .f32 0x41200000#32))

theorem rowMean_at (v : FVec Ideal S10000x10 .f32) (p : Fin 10000) (z : Fin 1) :
    rowMean v (ix2 p z) = mean10 fun j => v (ix2 p j) := by
  show Ideal.div (shapeCast S10000x1 (multiReduction .add [1] S10000 v 0x00000000#32 reduces_S10000x10_S10000 (.inl rfl) rfl) shapeCasts_S10000_S10000x1 (ix2 p z)) ten = _
  rw [column_at, laneSum_at]
  rfl

/-- Each entry of a slice less its row's mean. -/
def deviation (v : FVec Ideal S10000x10 .f32) : FVec Ideal S10000x10 .f32 :=
  subf v (broadcastTo S10000x10 (rowMean v) broadcasts_S10000x1_S10000x10)

theorem deviation_at (v : FVec Ideal S10000x10 .f32) (p : Fin 10000) (q : Fin 10) :
    deviation v (ix2 p q) = v (ix2 p q) - mean10 fun j => v (ix2 p j) := by
  show v (ix2 p q) - broadcastTo S10000x10 (rowMean v) broadcasts_S10000x1_S10000x10 (ix2 p q) = _
  rw [lanes_at, rowMean_at]

/-- What the body stores for a slice: the deviations over the root of their mean square plus the offset. -/
def sliceNorm (v : FVec Ideal S10000x10 .f32) : FVec Ideal S10000x10 .f32 :=
  divf (deviation v)
    (broadcastTo S10000x10
      (addf (sqrt (rowMean (mulf (deviation v) (deviation v)))) (broadcast S10000x1 (Scalar.ofBits .f32 0x33D6BF95#32)))
      broadcasts_S10000x1_S10000x10)

/-- At row `p`, lane `q`, that is the standardised entry `q` of the slice's row `p`. -/
theorem sliceNorm_at (v : FVec Ideal S10000x10 .f32) (p : Fin 10000) (q : Fin 10) :
    sliceNorm v (ix2 p q) = norm10 (fun j => v (ix2 p j)) q := by
  show Ideal.div (deviation v (ix2 p q))
    (broadcastTo S10000x10 (addf (sqrt (rowMean (mulf (deviation v) (deviation v)))) (broadcast S10000x1 (Scalar.ofBits .f32 0x33D6BF95#32)))
      broadcasts_S10000x1_S10000x10 (ix2 p q)) = _
  rw [lanes_at, deviation_at]
  show Ideal.div _ (Ideal.sqrt (rowMean (mulf (deviation v) (deviation v)) (ix2 p (0 : Fin 1))) + eps) = _
  rw [rowMean_at]
  unfold norm10 var10
  refine congrArg (fun t => Ideal.div _ (Ideal.sqrt t + eps)) ?_
  unfold mean10
  refine congrArg (Ideal.div · ten) (Finset.sum_congr rfl fun j _ => ?_)
  show deviation v (ix2 p j) * deviation v (ix2 p j) = _
  rw [deviation_at]
  rfl

/-! ## The two payloads -/

/-- The first store's value is that function of the slice of columns 0–9, -/
theorem pay1_eq (v0 : Vec Ideal S10000x20 .f32) :
    k0_pay1 (F := Ideal) v0 = sliceNorm (extractStridedSlice S10000x10 ![0, 0] v0 slices_S10000x20_o0_0_S10000x10) := rfl

/-- and the second store's of the slice of columns 10–19. -/
theorem pay2_eq (v0 : Vec Ideal S10000x20 .f32) :
    k0_pay2 (F := Ideal) v0 = sliceNorm (extractStridedSlice S10000x10 ![0, 10] v0 slices_S10000x20_o0_10_S10000x10) := rfl

/-- Lane `q` of row `p` of the slice starting at column `o` is column `o + q` of the block's row `p`. -/
theorem slice_at (o : Nat) (v0 : Vec Ideal S10000x20 .f32) (h : S10000x20.Slices ![0, o] S10000x10) (p : Fin 10000) (q : Fin 10)
    (c : Fin 20) (hc : c.val = o + q.val) :
    extractStridedSlice S10000x10 ![0, o] v0 h (ix2 p q) = v0 (ix2 p c) := by
  refine extractStridedSlice_apply _ v0 h (ix2 p q) (ix2 p c) fun a => ?_
  match a with
  | ⟨0, _⟩ => show p.val = 0 + p.val; omega
  | ⟨1, _⟩ => show c.val = o + q.val; exact hc

end Cert.KernelIdeal.Hand

end
-- ==== Proof.KernelArray.lean ====
/-
  From what each grid point writes back to the whole array the region leaves.

  Grid point `t` (of 200) stages rows `10000·t … 10000·t + 9999` of the argument, all twenty columns, and writes
  back the same rows of the region's [2000000, 20] result. Its block is filled by two stores, columns 0–9 and
  columns 10–19, each the standardised slice of the staged rows; so at row `p`, column `10·s + q` of the block the
  point leaves the standardised entry `q` of segment `s` of row `10000·t + p` of the argument. That is the block of
  ONE function of the argument array — at (r, c) the standardised entry `c mod 10` of segment `c div 10` of row `r`
  — and every row `r` lies in the block of point `r div 10000`, so after the last point the array is that function.
-/
import proofs.«140830_j57956288692228_1_alg».proof.Proof.Gen.KernelIdeal.Frame
import proofs.«140830_j57956288692228_1_alg».proof.Proof.KernelSegment
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem
open Cert.Standardize
open Idealize.ShloMosaic.Pipeline (Dat)

/-! ## The region's result as one function of the argument array -/

theorem stdEntry_congr (x : (⟨2, ![2000000, 20]⟩ : Shape).Idx → EReal) {a n : Fin 2000000} {b s : Fin 2} {d q : Fin 10}
    (h0 : a = n) (h1 : b = s) (h2 : d = q) : stdEntry x a b d = stdEntry x n s q := by
  subst h0 h1 h2; rfl

/-- At (r, c): the standardised entry `c mod 10` of segment `c div 10` of row `r`. -/
def flat (x : S2000000x20.Idx → EReal) : S2000000x20.Idx → EReal := fun y =>
  stdEntry x (y 0) ⟨(y 1).val / 10, by have h : (y 1).val < 20 := (y 1).isLt; omega⟩ ⟨(y 1).val % 10, by omega⟩

/-- Named by coordinates: at row `n`, column `10·s + q`. -/
theorem flat_at (x : S2000000x20.Idx → EReal) (y : S2000000x20.Idx) (n : Fin 2000000) (s : Fin 2) (q : Fin 10)
    (h0 : (y 0).val = n.val) (h1 : (y 1).val = 10 * s.val + q.val) : flat x y = stdEntry x n s q := by
  have hq := q.isLt
  exact stdEntry_congr x (Fin.ext h0) (Fin.ext (by show (y 1).val / 10 = s.val; omega)) (Fin.ext (by show (y 1).val % 10 = q.val; omega))

/-! ## One store of one point -/

/-- If a block's row `p` is row `row p` of the array `x`, the value stored for the slice starting at column `10·s`
    is, at row `p` and lane `q`, the standardised entry `q` of segment `s` of that row of `x`. -/
theorem store_at (x : S2000000x20.Idx → EReal) (xb : Vec Ideal S10000x20 .f32) (row : Fin 10000 → Fin 2000000)
    (hxb : ∀ (p : Fin 10000) (c : Fin 20), xb (ix2 p c) = x (ix2 (row p) c))
    (o : Nat) (s : Fin 2) (ho : o = 10 * s.val) (h : S10000x20.Slices ![0, o] S10000x10) (p : Fin 10000) (q : Fin 10) :
    sliceNorm (extractStridedSlice S10000x10 ![0, o] xb h) (ix2 p q) = stdEntry x (row p) s q := by
  rw [sliceNorm_at]
  unfold stdEntry rowSegment
  refine congrArg (norm10 · q) (funext fun j => ?_)
  rw [slice_at o xb h p j (segCol s j) (by rw [segCol_val, ho])]
  exact hxb p (segCol s j)

/-! ## One point's block -/

theorem hz : (![0, 0] : Fin 2 → Nat) = fun _ => 0 := funext fun a => by fin_cases a <;> rfl

/-- What the two stores leave in a block's buffer is any function `g` of the block index that, at row `p` and
    column `10·s + q`, is the standardised entry `q` of segment `s` of the array row the block's row `p` is: each
    store's rectangle starts at row 0 and column `10·s`, so its local (p, q) is the block's (p, 10·s + q). -/
theorem block_eq (x : S2000000x20.Idx → EReal) (xb : Vec Ideal S10000x20 .f32) (row : Fin 10000 → Fin 2000000)
    (hxb : ∀ (p : Fin 10000) (c : Fin 20), xb (ix2 p c) = x (ix2 (row p) c))
    (g : S10000x20.Idx → EReal)
    (hg : ∀ (p : Fin 10000) (s : Fin 2) (q : Fin 10) (y : S10000x20.Idx), (y 0).val = p.val → (y 1).val = 10 * s.val + q.val →
      g y = stdEntry x (row p) s q) :
    out0_1 (F := Ideal) xb = g := by
  funext y
  unfold out0_1
  simp only [View.ld_unit_zero (S := S10000x20) hz]
  refine View.canon_apply_of_pieces (Val := Elt Ideal) g _ ?_ y (cover0_1 _ _ y)
  intro pc hpc z
  simp only [List.mem_cons, List.mem_nil_iff, or_false] at hpc
  rcases hpc with rfl | rfl
  · obtain ⟨p, q, rfl⟩ : ∃ (p : Fin 10000) (q : Fin 10), z = ix2 p q := ⟨z 0, z 1, eq_ix2 z⟩
    show k0_pay2 (F := Ideal) xb (ix2 p q) = g (r0_2.emb (ix2 p q))
    rw [pay2_eq, store_at x xb row hxb 10 1 rfl _ p q]
    refine (hg p 1 q _ ?_ ?_).symm
    · show 0 + 1 * p.val = p.val; omega
    · show 10 + 1 * q.val = 10 * 1 + q.val; omega
  · obtain ⟨p, q, rfl⟩ : ∃ (p : Fin 10000) (q : Fin 10), z = ix2 p q := ⟨z 0, z 1, eq_ix2 z⟩
    show k0_pay1 (F := Ideal) xb (ix2 p q) = g (r0_1.emb (ix2 p q))
    rw [pay1_eq, store_at x xb row hxb 0 0 rfl _ p q]
    refine (hg p 0 q _ ?_ ?_).symm
    · show 0 + 1 * p.val = p.val; omega
    · show 0 + 1 * q.val = 10 * 0 + q.val; omega

/-! ## The points' blocks in the two arrays -/

variable (m : (ℓ : Loc nD τ sig) → Buf (Elt Ideal) ℓ) (ρ : Dev nD → PrngReg)

/-- Both windows move down the rows with the point and never along the columns (decided over the 200 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of point `t`'s block is row `10000·t + p` of the array. -/
def blockRow (t : Fin cfg0.N) (p : Fin 10000) : Fin 2000000 :=
  ⟨10000 * t.val + p.val, by have ht : t.val < 200 := lt_of_lt_of_eq t.isLt N_0; have := p.isLt; omega⟩

/-- The staged input block at point `t` is those rows of the argument as the region finds it. -/
theorem iblk_at (c : Dev nD) (t : Fin cfg0.N) (p : Fin 10000) (c' : Fin 20) :
    (iblk m c 0 t : Vec Ideal S10000x20 .f32) (ix2 p c') = (V m c main_arg0 : S2000000x20.Idx → EReal) (ix2 (blockRow t p) c') := by
  obtain ⟨e0, e1, -, -⟩ := idx_facts t
  show V m c main_arg0 (((cfg0.win 0).blk t).view.emb (ix2 p c')) = V m c main_arg0 (ix2 (blockRow t p) c')
  refine congrArg (V m c main_arg0) (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 20 + 1 * c'.val = c'.val; rw [e1]; omega

/-- The result function read through point `t`'s output block, at the block's row `p` and column `10·s + q`. -/
theorem read_flat_at (c : Dev nD) (t : Fin cfg0.N) (x : S2000000x20.Idx → EReal) (p : Fin 10000) (s : Fin 2) (q : Fin 10)
    (y : S10000x20.Idx) (h0 : (y 0).val = p.val) (h1 : (y 1).val = 10 * s.val + q.val) :
    (((cfg0.win 1).blk t).view.read (Elt Ideal) (flat x) : S10000x20.Idx → EReal) y = stdEntry x (blockRow t p) s q := by
  obtain ⟨-, -, e0, e1⟩ := idx_facts t
  show flat x (((cfg0.win 1).blk t).view.emb y) = _
  refine flat_at x _ (blockRow t p) s q ?_ ?_
  · show win0_1.index t (0 : Fin 2) * 10000 + 1 * (y 0).val = 10000 * t.val + p.val; rw [e0, h0]; omega
  · show win0_1.index t (1 : Fin 2) * 20 + 1 * (y 1).val = 10 * s.val + q.val; rw [e1, h1]; omega

/-- What point `t` writes back is block `t` of the result function of the argument array. -/
theorem flushed_eq (c : Dev nD) (t : Fin cfg0.N) :
    (dats m 0 c).flushed 1 t = ((cfg0.win 1).blk t).view.read (Elt Ideal) (flat (V m c main_arg0)) := by
  show (cfg0.win 1).cut (grid0.coords t) ((dats m 0 c).after 1 t) = _
  rw [after0_1]
  exact block_eq (V m c main_arg0) (iblk m c 0 t) (blockRow t) (fun p c' => iblk_at m c t p c') _
    (fun p s q y h0 h1 => read_flat_at c t (V m c main_arg0) p s q y h0 h1)

/-! ## The array after the last point -/

/-- An index is in point `t`'s block iff each coordinate is in the block's range on its axis. -/
theorem mem_blk (t : Fin cfg0.N) (i : S2000000x20.Idx) :
    i ∈ ((cfg0.win 1).blk t).view.set ↔ ∀ a : Fin 2, win0_1.index t a * S10000x20.size a ≤ (i a).val
      ∧ (i a).val < win0_1.index t a * S10000x20.size a + S10000x20.size a := by
  show i ∈ ((View.whole main_v0).slice (win0_1.rect t)).set ↔ _
  rw [View.set_slice_whole, Rect.mem_set_unit]
  exact Iff.rfl

/-- Row `r` lies in the block of point `r div 10000`. -/
theorem cover (i : S2000000x20.Idx) : ∃ t : Fin cfg0.N, (cfg0.win 1).flush t = true ∧ i ∈ ((cfg0.win 1).blk t).view.set := by
  have hi0 : (i 0).val < 2000000 := (i 0).isLt
  have hi1 : (i 1).val < 20 := (i 1).isLt
  obtain ⟨t, ht⟩ : ∃ t : Fin cfg0.N, t.val = (i 0).val / 10000 :=
    ⟨⟨(i 0).val / 10000, by rw [show cfg0.N = 200 from N_0]; omega⟩, rfl⟩
  obtain ⟨-, -, e0, e1⟩ := idx_facts t
  refine ⟨t, flush0_1 t, ?_⟩
  rw [mem_blk]
  intro a
  match a with
  | ⟨0, _⟩ =>
    show win0_1.index t (0 : Fin 2) * 10000 ≤ (i 0).val ∧ (i 0).val < win0_1.index t (0 : Fin 2) * 10000 + 10000
    rw [e0, ht]; omega
  | ⟨1, _⟩ =>
    show win0_1.index t (1 : Fin 2) * 20 ≤ (i 1).val ∧ (i 1).val < win0_1.index t (1 : Fin 2) * 20 + 20
    rw [e1]; omega

/-- So after the run the region's result array is the result function of the argument array. -/
theorem final (c : Dev nD) : (dats m 0 c).arrAt 1 cfg0.N = flat (V m c main_arg0) :=
  (dats m 0 c).arrAt_eq_of_cover 1 (flat (V m c main_arg0)) (fun t _ => flushed_eq m c t) cover

end Cert.KernelIdeal.Hand

end
-- ==== Proof.KernelRun.lean ====
/-
  The kernel program's run, read as a value.

  After the region the program views its [2000000, 20] result as [2000000, 2, 10]. Entry (n, s, k) of the view has
  row-major position `(2n + s)·10 + k = 20·n + (10·s + k)`, so it is the region's result at row `n`, column
  `10·s + k`: the standardised entry `k` of segment `s` of row `n`. Hence the program's result array is the
  standardised array of its argument, and the argument itself is only ever read.
-/
import proofs.«140830_j57956288692228_1_alg».proof.Proof.KernelArray
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx Idealize.SL.Sem
open Cert.Standardize
open Idealize.ShloMosaic.Pipeline (Dat)

/-- The region's result viewed as [2000000, 2, 10] is the standardised array. -/
theorem view_flat (x : S2000000x20.Idx → EReal) :
    shapeCast S2000000x2x10 (flat x) shapeCasts_S2000000x20_S2000000x2x10 = standardized x := by
  funext i
  obtain ⟨n, s, k, rfl⟩ : ∃ (n : Fin 2000000) (s : Fin 2) (k : Fin 10), i = ix3 n s k := ⟨i 0, i 1, i 2, eq_ix3 i⟩
  have hs := s.isLt
  have hk := k.isLt
  rw [shapeCast_apply (flat x) shapeCasts_S2000000x20_S2000000x2x10 (ix3 n s k) (ix2 n (segCol s k)) (by
    rw [Shape.rowMajor_val_two, Shape.rowMajor_val_three]
    show n.val * 20 + (10 * s.val + k.val) = (n.val * 2 + s.val) * 10 + k.val
    omega)]
  exact flat_at x _ n s k rfl rfl

variable (m : (ℓ : Loc nD τ sig) → Buf (Elt Ideal) ℓ) (ρ : Dev nD → PrngReg)

/-- What the line after the region leaves in the program's result buffer. -/
theorem result_eq (c : Dev nD) :
    Pipeline.afterTail₀ cfgs (dats m) 0 (V0 m) [hostOps1] c main_v1 = standardized (m ((c : Thread nD τ).loc main_arg0)) := by
  have hw : Pipeline.withArrays (cfgs 0).spec c (V0 m c) (fun w => (dats m 0 c).arrAt w (cfgs 0).N) (Proc.devRef .tc main_v0)
      = flat (m ((c : Thread nD τ).loc main_arg0)) :=
    (Pipeline.withArrays_arr spec0 launch0.win.arr_inj c _ _ 1).trans ((final m c).trans (congrArg flat (V_main_arg0 m c)))
  unfold Pipeline.afterTail₀
  show StableHlo.after hostOps1 _ (Proc.devRef .tc main_v1) = _
  after_results
  refine Eq.trans ?_ (view_flat (m ((c : Thread nD τ).loc main_arg0)))
  funext i
  show shapeCast S2000000x2x10 (Pipeline.withArrays (cfgs 0).spec c (V0 m c) (fun w => (dats m 0 c).arrAt w (cfgs 0).N)
    (Proc.devRef .tc main_v0)) shapeCasts_S2000000x20_S2000000x2x10 i = _
  rw [hw]

/-- The program's result buffer is neither scoped nor any window's array: it is left to the line after the region. -/
theorem result_rest : main_v1 ∈ Pipeline.restRefs sig (cfgs 0).spec :=
  Pipeline.mem_restRefs_of main_v1 rfl (by decide)

/-- THE RUN, READ: every weakly fair execution of the program ends with its result array at the standardised array of
    its argument, and the argument as it was. -/
theorem run : θ_run defs (onTc (τ := τ) (main (F := Ideal))) ⟨m, fun _ => 0, ρ⟩ fun r => ∀ c : Dev nD,
      r.2.mem ((c.tc : Thread nD τ).loc main_v1) = standardized (m ((c.tc : Thread nD τ).loc main_arg0))
      ∧ r.2.mem ((c.tc : Thread nD τ).loc main_arg0) = m ((c.tc : Thread nD τ).loc main_arg0) :=
  (θ_run defs _ _).mono (fun r h c => ⟨((h c).2 main_v1 result_rest).trans (result_eq m c),
      ((h c).1 0).trans (((dats m 0 c).arrAt_in 0 rfl _).trans ((A_eq m c 0).trans (V_main_arg0 m c)))⟩)
    (run_main m ρ)

end Cert.KernelIdeal.Hand

end
-- ==== Proof.lean ====
/-
  Per-segment standardisation of x : f32[2000000, 20], read as [2000000, 2, 10]: each length-ten segment `s` becomes
  `(sₖ - μ) / (√σ² + ε)` with `μ` its mean and `σ²` its population variance.

  The kernel keeps the [2000000, 20] layout: 200 grid points, each staging 10000 whole rows, cutting them into the
  two column slices 0–9 and 10–19, standardising each row of each slice with lane sums, and storing the two slices
  side by side; the host views the result as [2000000, 2, 10] afterwards. The reference views the argument as
  [2000000, 2, 10] first and standardises along the last axis. Over the extended reals both are the same function
  of the argument, index by index — the sums run over the same ten entries, the divisor ten and the offset `ε` are
  the same words on both sides, the kernel's and the host's division and square root are the same exact
  operations — so no algebraic law, and no finiteness of the input, is needed: only that column `10·s + k` of row
  `n` is entry (n, s, k) of the view.

  The modules: `SegmentNorm` states the function (`standardized`); `ReferenceValue` reads the reference's result as
  it; `KernelSegment` reads what the body stores for one slice; `KernelArray` goes from the points' blocks to the
  region's whole result; `KernelRun` takes that through the final view. The three frames are the generated runs, the
  idealisation rewrote nothing, and the equivalence sets the two runs side by side at the one function.
-/
import proofs.«140830_j57956288692228_1_alg».proof.Defs
import proofs.«140830_j57956288692228_1_alg».proof.Proof.Gen.Kernel
import proofs.«140830_j57956288692228_1_alg».proof.Proof.Gen.Kernel.Frame
import proofs.«140830_j57956288692228_1_alg».proof.Proof.Gen.KernelIdeal
import proofs.«140830_j57956288692228_1_alg».proof.Proof.Gen.KernelIdeal.Frame
import proofs.«140830_j57956288692228_1_alg».proof.Proof.Gen.ReferenceIdeal
import proofs.«140830_j57956288692228_1_alg».proof.Proof.Gen.ReferenceIdeal.Run
import proofs.«140830_j57956288692228_1_alg».proof.Proof.Gen.ReferenceIdeal.Read
import proofs.«140830_j57956288692228_1_alg».proof.Proof.Gen.Pre_finite_inputs
import proofs.«140830_j57956288692228_1_alg».proof.Proof.ReferenceValue
import proofs.«140830_j57956288692228_1_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs, faults nowhere and leaves its argument alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation of the kernel. -/
theorem preserves : Cert.preserves_Kernel_KernelIdeal := trivial

/-- From memories that agree on the argument both programs end with their result array at the standardised array
    of that argument. -/
theorem algebraic : Cert.algebraic_KernelIdeal_ReferenceIdeal := by
  intro m ρ m' ρ' _ hagree
  refine ⟨fun c => Cert.Standardize.standardized (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v18_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
